-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 89
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x1, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S1x32, .f32⟩
  | .hbm, ⟨88, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x32, .f32⟩
  | .local _ .vmem, ⟨27, _⟩ => ⟨S1x32, .f32⟩
  | .local _ .vmem, ⟨28, _⟩ => ⟨S5000x32, .f32⟩
  | .local _ .vmem, ⟨29, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S100000x32.size a
  hwx4_3 : ∀ i : grid4.Coords, EltTy.bits .f32 = 32 ∨ (Rect.block (s := S100000x32) S5000x32.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x32, .f32⟩
  | 127 => ⟨S1x32, .f32⟩
  | _ => ⟨S100000x64, .f32⟩

abbrev hbmTy0_1 (i : Nat) : BufTy := match i % 128 with
  | 0 => ⟨S100000x32, .f32⟩
  | 1 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Chain1.lean ====
/-
  The kernel program's run up to the first pallas_call, read against the reference's stages. Before the first
  pallas_call the host computes, from the edge list alone, the source and destination indices, the inverse square root of
  the in-degree plus one, and the edge weights: the same operations on the same input as the reference's, so the same
  values.
-/
import proofs.«161740_j15522011808326_1_alg».proof.Proof.Gen.KernelIdeal.Frame
import proofs.«161740_j15522011808326_1_alg».proof.Proof.Gen.ReferenceIdeal.Read

set_option maxRecDepth 16384

noncomputable section

namespace Cert.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## The arguments as launched -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)

/-! ## After the first host stretch -/

theorem W1_arg0 : W1 m ρ c (Proc.devRef .tc main_arg0) = x0 m c := by
  show StableHlo.after hostOps0 (W0 m ρ c) (Proc.devRef .tc main_arg0) = _
  after_results_simp <;> rfl
theorem W1_arg2 : W1 m ρ c (Proc.devRef .tc main_arg2) = x2 m c := by
  show StableHlo.after hostOps0 (W0 m ρ c) (Proc.devRef .tc main_arg2) = _
  after_results_simp <;> rfl
theorem W1_arg3 : W1 m ρ c (Proc.devRef .tc main_arg3) = x3 m c := by
  show StableHlo.after hostOps0 (W0 m ρ c) (Proc.devRef .tc main_arg3) = _
  after_results_simp <;> rfl
theorem W1_arg4 : W1 m ρ c (Proc.devRef .tc main_arg4) = x4 m c := by
  show StableHlo.after hostOps0 (W0 m ρ c) (Proc.devRef .tc main_arg4) = _
  after_results_simp <;> rfl
theorem W1_arg5 : W1 m ρ c (Proc.devRef .tc main_arg5) = x5 m c := by
  show StableHlo.after hostOps0 (W0 m ρ c) (Proc.devRef .tc main_arg5) = _
  after_results_simp <;> rfl
theorem W1_arg6 : W1 m ρ c (Proc.devRef .tc main_arg6) = x6 m c := by
  show StableHlo.after hostOps0 (W0 m ρ c) (Proc.devRef .tc main_arg6) = _
  after_results_simp <;> rfl
theorem W1_arg7 : W1 m ρ c (Proc.devRef .tc main_arg7) = x7 m c := by
  show StableHlo.after hostOps0 (W0 m ρ c) (Proc.devRef .tc main_arg7) = _
  after_results_simp <;> rfl

/-- The source indices. -/
theorem W1_v1 : W1 m ρ c (Proc.devRef .tc main_v1) = Cert.ReferenceIdeal.Read.val_main_v1 (F := Ideal) (x1 m c) := by
  show StableHlo.after hostOps0 (W0 m ρ c) (Proc.devRef .tc main_v1) = _
  after_results_simp <;> rfl
/-- The destination indices. -/
theorem W1_v3 : W1 m ρ c (Proc.devRef .tc main_v3) = Cert.ReferenceIdeal.Read.val_main_v3 (F := Ideal) (x1 m c) := by
  show StableHlo.after hostOps0 (W0 m ρ c) (Proc.devRef .tc main_v3) = _
  after_results_simp <;> rfl
/-- The inverse square root of the in-degree plus one. -/
theorem W1_v10 : W1 m ρ c (Proc.devRef .tc main_v10) = Cert.ReferenceIdeal.Read.val_main_v11 (F := Ideal) (x1 m c) := by
  show StableHlo.after hostOps0 (W0 m ρ c) (Proc.devRef .tc main_v10) = _
  after_results_simp <;> rfl
/-- The edge weights. -/
theorem W1_v25 : W1 m ρ c (Proc.devRef .tc main_v25) = Cert.ReferenceIdeal.Read.val_main_v26 (F := Ideal) (x1 m c) := by
  show StableHlo.after hostOps0 (W0 m ρ c) (Proc.devRef .tc main_v25) = _
  after_results_simp <;> rfl

end Cert.Bridge

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.LibMatProd.lean ====
/-
  Matrix products at the exact (extended-real) reading, element by element. A rows-by-columns product, whether the host's
  `dot_general` or a kernel's matmul into a zero accumulator whose operands were first narrowed to a shorter float format
  (a change of format is the identity on exact values), is at (r, c) the sum over the shared axis of A(r, k) · B(k, c).
  Both are stated for any record of dimension numbers whose operand indices are known coordinate by coordinate.
-/
import Idealize.ShloMosaic.PureOps.Ideal.Laws
import Idealize.ShloMosaic.Lib.ValueIdx
import proofs.«161740_j15522011808326_1_alg».proof.Proof.LibDotSum

noncomputable section

open scoped BigOperators

namespace Cert.Spec

open Idealize.ShloMosaic Idealize.ShloMosaic.ValueIdx

/-- The product of an `M × K` array by a `K × N` array: at (r, c) the sum over k of A(r, k) · B(k, c). -/
def rowsByCols {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Two `M × N` arrays added, then one row `b` added to every row, then the maximum with a fixed value `z`
    (with `z` zero: bias, then the rectifier). -/
def addRowMax {M N : Nat} (P Q : (⟨2, ![M, N]⟩ : Shape).Idx → EReal) (b : (⟨2, ![1, N]⟩ : Shape).Idx → EReal) (z : EReal) :
    (⟨2, ![M, N]⟩ : Shape).Idx → EReal :=
  fun j => max ((P j + Q j) + b (ix2 (0 : Fin 1) (j 1))) z

/-- One row `b` added to every row of an `M × N` array. -/
def addRow {M N : Nat} (P : (⟨2, ![M, N]⟩ : Shape).Idx → EReal) (b : (⟨2, ![1, N]⟩ : Shape).Idx → EReal) :
    (⟨2, ![M, N]⟩ : Shape).Idx → EReal :=
  fun j => P j + b (ix2 (0 : Fin 1) (j 1))

end Cert.Spec

namespace Cert.MatProd

open Idealize.ShloMosaic Idealize.ShloMosaic.ValueIdx

/-- The host's product of an `M × K` by a `K × N` array, at (r, c): `∑ k, A (r, k) · B (k, c)`. -/
theorem hostDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (j : (⟨2, ![M, N]⟩ : Shape).Idx) :
    Host.dotGeneral (F := Ideal) d none A B j = Cert.Spec.rowsByCols A B j := by
  unfold Cert.Spec.rowsByCols
  simp only [Host.dotGeneral]
  rw [Ideal.dotGeneral_apply]
  exact Cert.LibDotSum.plain d hr hs hl0 hl1 hr0 hr1 (fun a b => A a * B b) j

/-- A kernel's matmul of two blocks narrowed to bf16, into the zero accumulator, at (r, c): the same sum of the
    un-narrowed blocks' products. -/
theorem tileDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32)
    (hb : (FTy.bf16).bits < (FTy.f32).bits) (j : (⟨2, ![M, N]⟩ : Shape).Idx) :
    matmul (F := Ideal) d none (truncf .bf16 A hb) (truncf .bf16 B hb) (constant ⟨2, ![M, N]⟩ .f32 0x00000000#32) j
      = Cert.Spec.rowsByCols A B j := by
  unfold Cert.Spec.rowsByCols
  simp only [matmul]
  rw [Ideal.matmul_constant_zero_apply]
  exact Cert.LibDotSum.plain d hr hs hl0 hl1 hr0 hr1 (fun a b => A a * B b) j

end Cert.MatProd

end
-- ==== Proof.Region0.lean ====
/-
  The dense projection launched as pallas_call 0: an [100000, 64] array times a [64, 64] weight, twenty row tiles of
  5000 rows, the weight resident. Each tile stores the matmul of its 5000 rows (narrowed to bf16, exact at the ideal
  reading) by the whole weight, into a zero accumulator; so the output array after the call is the whole product:
  entry (r, c) is the sum over k of A(r, k) · W(k, c). Stated for ANY contents of the buffers at the call's entry.
-/
import proofs.«161740_j15522011808326_1_alg».proof.Proof.Gen.KernelIdeal.Frame
import Idealize.ShloMosaic.Lib.Pipeline.Value
import Idealize.ShloMosaic.Lib.ValueIdx
import proofs.«161740_j15522011808326_1_alg».proof.Proof.LibMatProd

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The tile's matmul, element by element -/

theorem tile_l0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem tile_l1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem tile_r0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem tile_r1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What a tile stores, at (r, c) of the tile: the sum over k of its rows' block at (r, k) times the weight at (k, c). -/
theorem pay_apply (x0 : FVec Ideal S5000x64 .f32) (x1 : FVec Ideal S64x64 .f32) (y : S5000x64.Idx) :
    k0_pay1 (F := Ideal) x0 x1 y = Cert.Spec.rowsByCols x0 x1 y := by
  unfold k0_pay1
  exact Cert.MatProd.tileDot_apply dot_S5000x64_S64x64_S5000x64_1_0_0_1_n_n rfl rfl tile_l0 tile_l1 tile_r0 tile_r1 x0 x1 _ y

/-! ## From tiles to the array -/

/-- The printed index maps, decided over the twenty tiles: the rows' window moves with the output's, the weight's stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT TILE `t` WRITES BACK is block `t` of the whole product of the arrays as the call finds them. -/
theorem flushed_eq (c : Dev nD) (t : Fin cfg0.N) :
    (dat0 V c).flushed 2 t
      = ((cfg0.win 2).blk t).view.read (Elt Ideal) (Cert.Spec.rowsByCols (M := 100000) (K := 64) (N := 64) (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext y
  show k0_pay1 (iblk0 V c 0 t) (iblk0 V c 1 t) y = Cert.Spec.rowsByCols (M := 100000) (K := 64) (N := 64) (V c main_arg0) (V c main_arg2) (((cfg0.win 2).blk t).view.emb y)
  rw [pay_apply]
  unfold Cert.Spec.rowsByCols
  refine Finset.sum_congr rfl fun k _ => ?_
  have hA : iblk0 V c 0 t (ix2 (y 0) k) = V c main_arg0 (ix2 ((((cfg0.win 2).blk t).view.emb y) 0) k) := by
    show V c main_arg0 (((cfg0.win 0).blk t).view.emb (ix2 (y 0) k)) = _
    refine congrArg (V c main_arg0) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 64 + 1 * k.val = k.val; omega
  have hB : iblk0 V c 1 t (ix2 k (y 1)) = V c main_arg2 (ix2 k ((((cfg0.win 2).blk t).view.emb y) 1)) := by
    show V c main_arg2 (((cfg0.win 1).blk t).view.emb (ix2 k (y 1))) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (y 1).val = win0_2.index t (1 : Fin 2) * 64 + 1 * (y 1).val; omega
  rw [hA, hB]

/-- An index of the array is in tile `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v26).slice (win0_2.rect t)).set ↔ _
  rw [View.set_slice_whole, Rect.mem_set_unit]
  exact Iff.rfl

/-- Every row lies in the tile numbered by its quotient by 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := idx_facts t
  have e5' : win0_2.index t (0 : Fin 2) = (i 0).val / 5000 := e5
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY after the call: the whole product of the two arrays as the call found them. -/
theorem final (c : Dev nD) :
    (dat0 V c).arrAt 2 cfg0.N = Cert.Spec.rowsByCols (M := 100000) (K := 64) (N := 64) (V c main_arg0) (V c main_arg2) :=
  (dat0 V c).arrAt_eq_of_cover 2 _ (fun t _ => flushed_eq V c t) cover

end Cert.KernelIdeal.Region0

end
-- ==== Proof.LibRowBias.lean ====
/-
  One row added to every row of an array: a [1, b] block broadcast over a rows reads, at (p, c), the block's one row at c.
-/
import Idealize.ShloMosaic.Lib.ValueIdx
import Idealize.ShloMosaic.Lib.ValueLayout
import Idealize.ShloMosaic.Lib.Pipeline.Value

noncomputable section

namespace Cert.RowBias

open Idealize.ShloMosaic Idealize.ShloMosaic.ValueIdx

/-- A `[1, b]` array broadcast to `[a, b]`, read at any index `y`: the one row at `y`'s column. -/
theorem bcastRow_apply {a b : ℕ} {α : Type} (v : (⟨2, ![1, b]⟩ : Shape).Idx → α)
    (h : (⟨2, ![1, b]⟩ : Shape).Broadcasts ⟨2, ![a, b]⟩) (y : (⟨2, ![a, b]⟩ : Shape).Idx) :
    broadcastTo ⟨2, ![a, b]⟩ v h y = v (ix2 (0 : Fin 1) (y 1)) := by
  obtain ⟨p, q, rfl⟩ : ∃ (p : Fin a) (q : Fin b), y = ix2 p q := ⟨y 0, y 1, eq_ix2 y⟩
  exact broadcastTo_1b_ab_apply v h p q

/-- A vector of `b` entries reshaped to one row, read at `(0, c)`: the entry `c`. -/
theorem rowOf_apply {b : ℕ} {α : Type} (x : (⟨1, ![b]⟩ : Shape).Idx → α) (h : (⟨1, ![b]⟩ : Shape).ShapeCasts ⟨2, ![1, b]⟩)
    (c : Fin b) : shapeCast ⟨2, ![1, b]⟩ x h (ix2 (0 : Fin 1) c) = x (ix1 c) :=
  shapeCast_a_1a_apply x h 0 c

end Cert.RowBias

end
-- ==== Proof.Region1.lean ====
/-
  The combine step launched as pallas_call 1: over twenty row tiles of 5000 rows, the aggregated messages plus the
  self-loop term plus the bias row (one [1, 64] block, resident, broadcast over the tile's rows), then the maximum with
  zero. The operations are elementwise, so the output array after the call is the same expression of the whole arrays:
  entry (r, c) is max ((P(r, c) + Q(r, c)) + b(0, c), 0). Stated for ANY contents of the buffers at the call's entry.
-/
import proofs.«161740_j15522011808326_1_alg».proof.Proof.Gen.KernelIdeal.Frame
import Idealize.ShloMosaic.Lib.Pipeline.Value
import Idealize.ShloMosaic.Lib.ValueIdx
import proofs.«161740_j15522011808326_1_alg».proof.Proof.LibMatProd
import proofs.«161740_j15522011808326_1_alg».proof.Proof.LibRowBias

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What a tile stores, at (r, c) of the tile: max ((p(r, c) + q(r, c)) + b(0, c), 0). -/
theorem pay_apply (x0 x1 : FVec Ideal S5000x64 .f32) (x2 : FVec Ideal S1x64 .f32) (y : S5000x64.Idx) :
    k1_pay1 (F := Ideal) x0 x1 x2 y = Cert.Spec.addRowMax x0 x1 x2 (Ideal.ofBits .f32 0x00000000#32) y := by
  unfold k1_pay1 Cert.Spec.addRowMax
  simp only [shapeCast_self]
  show max ((x0 y + x1 y) + broadcastTo S5000x64 x2 broadcasts_S1x64_S5000x64 y) (Ideal.ofBits .f32 0x00000000#32) = _
  exact congrArg (fun e => max ((x0 y + x1 y) + e) (Ideal.ofBits .f32 0x00000000#32))
    (Cert.RowBias.bcastRow_apply x2 broadcasts_S1x64_S5000x64 y)

/-- The printed index maps, decided over the twenty tiles: the two summands' windows move with the output's, the bias
    row's stays. -/
theorem idx_facts : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0
    ∧ win1_2.index t (1 : Fin 2) = 0
    ∧ win1_3.index t (1 : Fin 2) = 0
    ∧ win1_3.index t (0 : Fin 2) = t.val :=
  (by decide +kernel : ∀ t : Fin grid1.N, _)

/-- WHAT TILE `t` WRITES BACK is block `t` of the whole-array expression of the arrays as the call finds them. -/
theorem flushed_eq (c : Dev nD) (t : Fin cfg1.N) :
    (dat1 V c).flushed 3 t
      = ((cfg1.win 3).blk t).view.read (Elt Ideal)
          (Cert.Spec.addRowMax (M := 100000) (N := 64) (V c main_v39) (V c main_v43) (V c main_v44) (Ideal.ofBits .f32 0x00000000#32)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz]
  obtain ⟨e0, e1, e2, e3, e4, e5, e6, e7⟩ := idx_facts t
  funext y
  show k1_pay1 (iblk1 V c 0 t) (iblk1 V c 1 t) (iblk1 V c 2 t) y
    = Cert.Spec.addRowMax (M := 100000) (N := 64) (V c main_v39) (V c main_v43) (V c main_v44) (Ideal.ofBits .f32 0x00000000#32) (((cfg1.win 3).blk t).view.emb y)
  rw [pay_apply]
  unfold Cert.Spec.addRowMax
  have h0 : iblk1 V c 0 t y = V c main_v39 (((cfg1.win 3).blk t).view.emb y) := by
    show V c main_v39 (((cfg1.win 0).blk t).view.emb y) = _
    refine congrArg (V c main_v39) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 64 + 1 * (y 1).val = win1_3.index t (1 : Fin 2) * 64 + 1 * (y 1).val; omega
  have h1 : iblk1 V c 1 t y = V c main_v43 (((cfg1.win 3).blk t).view.emb y) := by
    show V c main_v43 (((cfg1.win 1).blk t).view.emb y) = _
    refine congrArg (V c main_v43) (funext fun a => Fin.ext ?_)
    match a with
    | ⟨0, _⟩ => show win1_1.index t (0 : Fin 2) * 5000 + 1 * (y 0).val = win1_3.index t (0 : Fin 2) * 5000 + 1 * (y 0).val; omega
    | ⟨1, _⟩ => show win1_1.index t (1 : Fin 2) * 64 + 1 * (y 1).val = win1_3.index t (1 : Fin 2) * 64 + 1 * (y 1).val; omega
  have h2 : iblk1 V c 2 t (ix2 (0 : Fin 1) (y 1)) = V c main_v44 (ix2 (0 : Fin 1) ((((cfg1.win 3).blk t).view.emb y) 1)) := by
    show V c main_v44 (((cfg1.win 2).blk t).view.emb (ix2 (0 : Fin 1) (y 1))) = _
    refine congrArg (V c main_v44) (funext fun a => Fin.ext ?_)
    match a with
    | ⟨0, _⟩ => show win1_2.index t (0 : Fin 2) * 1 + 1 * 0 = 0; omega
    | ⟨1, _⟩ => show win1_2.index t (1 : Fin 2) * 64 + 1 * (y 1).val = win1_3.index t (1 : Fin 2) * 64 + 1 * (y 1).val; omega
  rw [h0, h1, h2]

/-- An index of the array is in tile `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every row lies in the tile numbered by its quotient by 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5, e6, e7⟩ := idx_facts t
  have e7' : win1_3.index t (0 : Fin 2) = (i 0).val / 5000 := e7
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE ARRAY after the call: the elementwise expression of the three arrays as the call found them. -/
theorem final (c : Dev nD) :
    (dat1 V c).arrAt 3 cfg1.N
      = Cert.Spec.addRowMax (M := 100000) (N := 64) (V c main_v39) (V c main_v43) (V c main_v44) (Ideal.ofBits .f32 0x00000000#32) :=
  (dat1 V c).arrAt_eq_of_cover 3 _ (fun t _ => flushed_eq V c t) cover

end Cert.KernelIdeal.Region1

end
-- ==== Proof.Chain2.lean ====
/-
  The first graph convolution of the kernel program, read against the reference's stages. The first pallas_call leaves
  x · W1, which at the exact reading is the reference's first dot_general (both are the plain sum over the shared axis).
  The host then gathers its rows along the edges, weights them, scatter-adds them to the destinations, and forms the
  self-loop term: the same operations as the reference's on equal operands. The second pallas_call adds the two terms
  and the bias row and takes the maximum with zero, which is the reference's two additions and its rectifier, entry by
  entry; the bias row is the bias vector in both programs (a reshape to one row here, two broadcasts there).
-/
import proofs.«161740_j15522011808326_1_alg».proof.Proof.Gen.KernelIdeal.Frame
import proofs.«161740_j15522011808326_1_alg».proof.Proof.Gen.ReferenceIdeal.Read
import proofs.«161740_j15522011808326_1_alg».proof.Proof.Chain1
import proofs.«161740_j15522011808326_1_alg».proof.Proof.Region0
import proofs.«161740_j15522011808326_1_alg».proof.Proof.Region1
import proofs.«161740_j15522011808326_1_alg».proof.Proof.LibMatProd
import proofs.«161740_j15522011808326_1_alg».proof.Proof.LibRowBias

set_option maxRecDepth 16384

noncomputable section

namespace Cert.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## The reference's products as plain sums -/

/-- The reference's [100000, 64] × [64, 64] dot_general is the plain sum over the shared axis. -/
theorem refDot64 (A : FVec Ideal Cert.ReferenceIdeal.S100000x64 .f32) (B : FVec Ideal Cert.ReferenceIdeal.S64x64 .f32) :
    Cert.ReferenceIdeal.Read.val_main_v4 (F := Ideal) A B = Cert.Spec.rowsByCols A B :=
  funext fun j => by
    unfold Cert.ReferenceIdeal.Read.val_main_v4
    exact Cert.MatProd.hostDot_apply Cert.ReferenceIdeal.dot_S100000x64_S64x64_S100000x64_1_0_0_1_n_n rfl rfl
      Cert.ReferenceIdeal.Read.lhs_main_v4_0 Cert.ReferenceIdeal.Read.lhs_main_v4_1 Cert.ReferenceIdeal.Read.rhs_main_v4_0 Cert.ReferenceIdeal.Read.rhs_main_v4_1 A B j

/-! ## After the first pallas_call -/

/-- The first projection: x · W1. -/
theorem W2_v26 : W2 m ρ c (Proc.devRef .tc main_v26) = Cert.ReferenceIdeal.Read.val_main_v4 (F := Ideal) (x0 m c) (x2 m c) := by
  refine (W2_arr m ρ c 2).trans ?_
  rw [Cert.KernelIdeal.Region0.final (V1 m ρ) c, refDot64]
  exact congrArg₂ (Cert.Spec.rowsByCols (M := 100000) (K := 64) (N := 64)) (W1_arg0 m ρ c) (W1_arg2 m ρ c)

theorem W2_v1 : W2 m ρ c (Proc.devRef .tc main_v1) = Cert.ReferenceIdeal.Read.val_main_v1 (F := Ideal) (x1 m c) :=
  (W2_of_ne m ρ c main_v1 (by decide)).trans (W1_v1 m ρ c)
theorem W2_v3 : W2 m ρ c (Proc.devRef .tc main_v3) = Cert.ReferenceIdeal.Read.val_main_v3 (F := Ideal) (x1 m c) :=
  (W2_of_ne m ρ c main_v3 (by decide)).trans (W1_v3 m ρ c)
theorem W2_v10 : W2 m ρ c (Proc.devRef .tc main_v10) = Cert.ReferenceIdeal.Read.val_main_v11 (F := Ideal) (x1 m c) :=
  (W2_of_ne m ρ c main_v10 (by decide)).trans (W1_v10 m ρ c)
theorem W2_v25 : W2 m ρ c (Proc.devRef .tc main_v25) = Cert.ReferenceIdeal.Read.val_main_v26 (F := Ideal) (x1 m c) :=
  (W2_of_ne m ρ c main_v25 (by decide)).trans (W1_v25 m ρ c)
theorem W2_arg3 : W2 m ρ c (Proc.devRef .tc main_arg3) = x3 m c :=
  (W2_of_ne m ρ c main_arg3 (by decide)).trans (W1_arg3 m ρ c)
theorem W2_arg4 : W2 m ρ c (Proc.devRef .tc main_arg4) = x4 m c :=
  (W2_of_ne m ρ c main_arg4 (by decide)).trans (W1_arg4 m ρ c)
theorem W2_arg5 : W2 m ρ c (Proc.devRef .tc main_arg5) = x5 m c :=
  (W2_of_ne m ρ c main_arg5 (by decide)).trans (W1_arg5 m ρ c)
theorem W2_arg6 : W2 m ρ c (Proc.devRef .tc main_arg6) = x6 m c :=
  (W2_of_ne m ρ c main_arg6 (by decide)).trans (W1_arg6 m ρ c)
theorem W2_arg7 : W2 m ρ c (Proc.devRef .tc main_arg7) = x7 m c :=
  (W2_of_ne m ρ c main_arg7 (by decide)).trans (W1_arg7 m ρ c)

/-! ## After the second host stretch -/

/-- The aggregated messages of the first layer. -/
theorem W3_v39 : W3 m ρ c (Proc.devRef .tc main_v39) = Cert.ReferenceIdeal.Read.val_main_v39 (F := Ideal) (x0 m c) (x1 m c) (x2 m c) := by
  show StableHlo.after hostOps1 (W2 m ρ c) (Proc.devRef .tc main_v39) = _
  after_results_simp
  rw [W2_v26, W2_v1, W2_v3, W2_v25]
  rfl
/-- The self-loop term of the first layer. -/
theorem W3_v43 : W3 m ρ c (Proc.devRef .tc main_v43) = Cert.ReferenceIdeal.Read.val_main_v43 (F := Ideal) (x0 m c) (x1 m c) (x2 m c) := by
  show StableHlo.after hostOps1 (W2 m ρ c) (Proc.devRef .tc main_v43) = _
  after_results_simp
  rw [W2_v26, W2_v10]
  rfl
/-- The first bias as one row. -/
theorem W3_v44 : W3 m ρ c (Proc.devRef .tc main_v44) = shapeCast S1x64 (x3 m c) shapeCasts_S64_S1x64 := by
  show StableHlo.after hostOps1 (W2 m ρ c) (Proc.devRef .tc main_v44) = _
  after_results_simp
  rw [W2_arg3]
  rfl

end Cert.Bridge

end
-- ==== Proof.Region2.lean ====
/-
  The dense projection launched as pallas_call 2: an [100000, 64] array times a [64, 64] weight, twenty row tiles of
  5000 rows, the weight resident. Each tile stores the matmul of its 5000 rows (narrowed to bf16, exact at the ideal
  reading) by the whole weight, into a zero accumulator; so the output array after the call is the whole product:
  entry (r, c) is the sum over k of A(r, k) · W(k, c). Stated for ANY contents of the buffers at the call's entry.
-/
import proofs.«161740_j15522011808326_1_alg».proof.Proof.Gen.KernelIdeal.Frame
import Idealize.ShloMosaic.Lib.Pipeline.Value
import Idealize.ShloMosaic.Lib.ValueIdx
import proofs.«161740_j15522011808326_1_alg».proof.Proof.LibMatProd

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The tile's matmul, element by element -/

theorem tile_l0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem tile_l1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem tile_r0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem tile_r1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What a tile stores, at (r, c) of the tile: the sum over k of its rows' block at (r, k) times the weight at (k, c). -/
theorem pay_apply (x0 : FVec Ideal S5000x64 .f32) (x1 : FVec Ideal S64x64 .f32) (y : S5000x64.Idx) :
    k2_pay1 (F := Ideal) x0 x1 y = Cert.Spec.rowsByCols x0 x1 y := by
  unfold k2_pay1
  rw [shapeCast_self]
  exact Cert.MatProd.tileDot_apply dot_S5000x64_S64x64_S5000x64_1_0_0_1_n_n rfl rfl tile_l0 tile_l1 tile_r0 tile_r1 x0 x1 _ y

/-! ## From tiles to the array -/

/-- The printed index maps, decided over the twenty tiles: the rows' window moves with the output's, the weight's stays. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- WHAT TILE `t` WRITES BACK is block `t` of the whole product of the arrays as the call finds them. -/
theorem flushed_eq (c : Dev nD) (t : Fin cfg2.N) :
    (dat2 V c).flushed 2 t
      = ((cfg2.win 2).blk t).view.read (Elt Ideal) (Cert.Spec.rowsByCols (M := 100000) (K := 64) (N := 64) (V c main_v45) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  funext y
  show k2_pay1 (iblk2 V c 0 t) (iblk2 V c 1 t) y = Cert.Spec.rowsByCols (M := 100000) (K := 64) (N := 64) (V c main_v45) (V c main_arg4) (((cfg2.win 2).blk t).view.emb y)
  rw [pay_apply]
  unfold Cert.Spec.rowsByCols
  refine Finset.sum_congr rfl fun k _ => ?_
  have hA : iblk2 V c 0 t (ix2 (y 0) k) = V c main_v45 (ix2 ((((cfg2.win 2).blk t).view.emb y) 0) k) := by
    show V c main_v45 (((cfg2.win 0).blk t).view.emb (ix2 (y 0) k)) = _
    refine congrArg (V c main_v45) (funext fun a => Fin.ext ?_)
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 64 + 1 * k.val = k.val; omega
  have hB : iblk2 V c 1 t (ix2 k (y 1)) = V c main_arg4 (ix2 k ((((cfg2.win 2).blk t).view.emb y) 1)) := by
    show V c main_arg4 (((cfg2.win 1).blk t).view.emb (ix2 k (y 1))) = _
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 64 + 1 * (y 1).val = win2_2.index t (1 : Fin 2) * 64 + 1 * (y 1).val; omega
  rw [hA, hB]

/-- An index of the array is in tile `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Every row lies in the tile numbered by its quotient by 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e4, e5⟩ := idx_facts t
  have e5' : win2_2.index t (0 : Fin 2) = (i 0).val / 5000 := e5
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE ARRAY after the call: the whole product of the two arrays as the call found them. -/
theorem final (c : Dev nD) :
    (dat2 V c).arrAt 2 cfg2.N = Cert.Spec.rowsByCols (M := 100000) (K := 64) (N := 64) (V c main_v45) (V c main_arg4) :=
  (dat2 V c).arrAt_eq_of_cover 2 _ (fun t _ => flushed_eq V c t) cover

end Cert.KernelIdeal.Region2

end
-- ==== Proof.Chain3.lean ====
/-
  The first rectified layer and the second dense projection of the kernel program, read against the reference's stages.
  The second pallas_call adds the aggregated messages, the self-loop term and the bias row and takes the maximum with
  zero: entry by entry the reference's two additions and its rectifier, the bias row being the bias vector in both
  programs (one reshape to a row here, two broadcasts there). The third pallas_call multiplies the result by W2, which
  is the reference's second dot_general at the exact reading. The values the host computed from the edge list, and the
  arguments not yet used, pass through both calls unchanged.
-/
import proofs.«161740_j15522011808326_1_alg».proof.Proof.Gen.KernelIdeal.Frame
import proofs.«161740_j15522011808326_1_alg».proof.Proof.Gen.ReferenceIdeal.Read
import proofs.«161740_j15522011808326_1_alg».proof.Proof.Chain1
import proofs.«161740_j15522011808326_1_alg».proof.Proof.Chain2
import proofs.«161740_j15522011808326_1_alg».proof.Proof.Region1
import proofs.«161740_j15522011808326_1_alg».proof.Proof.Region2
import proofs.«161740_j15522011808326_1_alg».proof.Proof.LibMatProd
import proofs.«161740_j15522011808326_1_alg».proof.Proof.LibRowBias

set_option maxRecDepth 16384

noncomputable section

namespace Cert.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## What the second host stretch and the two calls leave alone -/

theorem W3_v1 : W3 m ρ c (Proc.devRef .tc main_v1) = Cert.ReferenceIdeal.Read.val_main_v1 (F := Ideal) (x1 m c) := by
  show StableHlo.after hostOps1 (W2 m ρ c) (Proc.devRef .tc main_v1) = _
  after_results_simp
  exact W2_v1 m ρ c
theorem W3_v3 : W3 m ρ c (Proc.devRef .tc main_v3) = Cert.ReferenceIdeal.Read.val_main_v3 (F := Ideal) (x1 m c) := by
  show StableHlo.after hostOps1 (W2 m ρ c) (Proc.devRef .tc main_v3) = _
  after_results_simp
  exact W2_v3 m ρ c
theorem W3_v10 : W3 m ρ c (Proc.devRef .tc main_v10) = Cert.ReferenceIdeal.Read.val_main_v11 (F := Ideal) (x1 m c) := by
  show StableHlo.after hostOps1 (W2 m ρ c) (Proc.devRef .tc main_v10) = _
  after_results_simp
  exact W2_v10 m ρ c
theorem W3_v25 : W3 m ρ c (Proc.devRef .tc main_v25) = Cert.ReferenceIdeal.Read.val_main_v26 (F := Ideal) (x1 m c) := by
  show StableHlo.after hostOps1 (W2 m ρ c) (Proc.devRef .tc main_v25) = _
  after_results_simp
  exact W2_v25 m ρ c
theorem W3_arg4 : W3 m ρ c (Proc.devRef .tc main_arg4) = x4 m c := by
  show StableHlo.after hostOps1 (W2 m ρ c) (Proc.devRef .tc main_arg4) = _
  after_results_simp
  exact W2_arg4 m ρ c
theorem W3_arg5 : W3 m ρ c (Proc.devRef .tc main_arg5) = x5 m c := by
  show StableHlo.after hostOps1 (W2 m ρ c) (Proc.devRef .tc main_arg5) = _
  after_results_simp
  exact W2_arg5 m ρ c
theorem W3_arg6 : W3 m ρ c (Proc.devRef .tc main_arg6) = x6 m c := by
  show StableHlo.after hostOps1 (W2 m ρ c) (Proc.devRef .tc main_arg6) = _
  after_results_simp
  exact W2_arg6 m ρ c
theorem W3_arg7 : W3 m ρ c (Proc.devRef .tc main_arg7) = x7 m c := by
  show StableHlo.after hostOps1 (W2 m ρ c) (Proc.devRef .tc main_arg7) = _
  after_results_simp
  exact W2_arg7 m ρ c

theorem W4_v1 : W4 m ρ c (Proc.devRef .tc main_v1) = Cert.ReferenceIdeal.Read.val_main_v1 (F := Ideal) (x1 m c) :=
  (W4_of_ne m ρ c main_v1 (by decide)).trans (W3_v1 m ρ c)
theorem W4_v3 : W4 m ρ c (Proc.devRef .tc main_v3) = Cert.ReferenceIdeal.Read.val_main_v3 (F := Ideal) (x1 m c) :=
  (W4_of_ne m ρ c main_v3 (by decide)).trans (W3_v3 m ρ c)
theorem W4_v10 : W4 m ρ c (Proc.devRef .tc main_v10) = Cert.ReferenceIdeal.Read.val_main_v11 (F := Ideal) (x1 m c) :=
  (W4_of_ne m ρ c main_v10 (by decide)).trans (W3_v10 m ρ c)
theorem W4_v25 : W4 m ρ c (Proc.devRef .tc main_v25) = Cert.ReferenceIdeal.Read.val_main_v26 (F := Ideal) (x1 m c) :=
  (W4_of_ne m ρ c main_v25 (by decide)).trans (W3_v25 m ρ c)
theorem W4_arg4 : W4 m ρ c (Proc.devRef .tc main_arg4) = x4 m c :=
  (W4_of_ne m ρ c main_arg4 (by decide)).trans (W3_arg4 m ρ c)
theorem W4_arg5 : W4 m ρ c (Proc.devRef .tc main_arg5) = x5 m c :=
  (W4_of_ne m ρ c main_arg5 (by decide)).trans (W3_arg5 m ρ c)
theorem W4_arg6 : W4 m ρ c (Proc.devRef .tc main_arg6) = x6 m c :=
  (W4_of_ne m ρ c main_arg6 (by decide)).trans (W3_arg6 m ρ c)
theorem W4_arg7 : W4 m ρ c (Proc.devRef .tc main_arg7) = x7 m c :=
  (W4_of_ne m ρ c main_arg7 (by decide)).trans (W3_arg7 m ρ c)

/-! ## After the second pallas_call: the first layer's output -/

/-- The bias row's entry in the two programs' spellings: a vector of 64 reshaped to one row, read at column `c`, and the
    same vector broadcast to a row and then over all rows, read at any row and column `c`. -/
theorem biasRow64 (b : FVec Ideal Cert.ReferenceIdeal.S64 .f32) (i : Cert.ReferenceIdeal.S100000x64.Idx) :
    shapeCast S1x64 b shapeCasts_S64_S1x64 (ix2 (0 : Fin 1) (i 1)) = Cert.ReferenceIdeal.Read.val_main_v46 (F := Ideal) b i := by
  rw [Cert.ReferenceIdeal.Read.val_main_v46_apply, Cert.ReferenceIdeal.Read.val_main_v45_apply]
  refine (Cert.RowBias.rowOf_apply b shapeCasts_S64_S1x64 (i 1)).trans (congrArg b (funext fun a => Fin.ext ?_))
  match a with
  | ⟨0, _⟩ => rfl

/-- Sum, bias, rectifier: the kernel's elementwise expression is the reference's, for any two summands. -/
theorem combine64 (P Q : FVec Ideal Cert.ReferenceIdeal.S100000x64 .f32) (b : FVec Ideal Cert.ReferenceIdeal.S64 .f32) :
    Cert.Spec.addRowMax (M := 100000) (N := 64) P Q (shapeCast S1x64 b shapeCasts_S64_S1x64) (Ideal.ofBits .f32 0x00000000#32)
      = maximumf (addf (addf P Q) (Cert.ReferenceIdeal.Read.val_main_v46 (F := Ideal) b)) (Cert.ReferenceIdeal.Read.val_main_call0_v0 (F := Ideal)) :=
  funext fun i => by
    unfold Cert.Spec.addRowMax
    rw [biasRow64 b i]
    show _ = max ((P i + Q i) + Cert.ReferenceIdeal.Read.val_main_v46 (F := Ideal) b i) (Cert.ReferenceIdeal.Read.val_main_call0_v0 (F := Ideal) i)
    rw [Cert.ReferenceIdeal.Read.val_main_call0_v0_apply, Cert.ReferenceIdeal.Read.val_main_call0_cst_apply]
    rfl

/-- The first layer's output: the reference's first rectified stage. -/
theorem W4_v45 : W4 m ρ c (Proc.devRef .tc main_v45) = Cert.ReferenceIdeal.Read.val_main_v48 (F := Ideal) (x0 m c) (x1 m c) (x2 m c) (x3 m c) := by
  refine (W4_arr m ρ c 3).trans ?_
  rw [Cert.KernelIdeal.Region1.final (V3 m ρ) c]
  rw [show V3 m ρ c main_v39 = _ from W3_v39 m ρ c, show V3 m ρ c main_v43 = _ from W3_v43 m ρ c,
    show V3 m ρ c main_v44 = _ from W3_v44 m ρ c]
  exact combine64 _ _ _

/-! ## After the third pallas_call: the second projection -/

/-- The second projection: relu(layer 1) · W2. -/
theorem W5_v46 : W5 m ρ c (Proc.devRef .tc main_v46)
    = Cert.ReferenceIdeal.Read.val_main_v49 (F := Ideal) (x0 m c) (x1 m c) (x2 m c) (x3 m c) (x4 m c) := by
  refine (W5_arr m ρ c 2).trans ?_
  rw [Cert.KernelIdeal.Region2.final (V4 m ρ) c]
  rw [show V4 m ρ c main_v45 = _ from W4_v45 m ρ c, show V4 m ρ c main_arg4 = _ from W4_arg4 m ρ c]
  exact (refDot64 _ _).symm

theorem W5_v1 : W5 m ρ c (Proc.devRef .tc main_v1) = Cert.ReferenceIdeal.Read.val_main_v1 (F := Ideal) (x1 m c) :=
  (W5_of_ne m ρ c main_v1 (by decide)).trans (W4_v1 m ρ c)
theorem W5_v3 : W5 m ρ c (Proc.devRef .tc main_v3) = Cert.ReferenceIdeal.Read.val_main_v3 (F := Ideal) (x1 m c) :=
  (W5_of_ne m ρ c main_v3 (by decide)).trans (W4_v3 m ρ c)
theorem W5_v10 : W5 m ρ c (Proc.devRef .tc main_v10) = Cert.ReferenceIdeal.Read.val_main_v11 (F := Ideal) (x1 m c) :=
  (W5_of_ne m ρ c main_v10 (by decide)).trans (W4_v10 m ρ c)
theorem W5_v25 : W5 m ρ c (Proc.devRef .tc main_v25) = Cert.ReferenceIdeal.Read.val_main_v26 (F := Ideal) (x1 m c) :=
  (W5_of_ne m ρ c main_v25 (by decide)).trans (W4_v25 m ρ c)
theorem W5_arg5 : W5 m ρ c (Proc.devRef .tc main_arg5) = x5 m c :=
  (W5_of_ne m ρ c main_arg5 (by decide)).trans (W4_arg5 m ρ c)
theorem W5_arg6 : W5 m ρ c (Proc.devRef .tc main_arg6) = x6 m c :=
  (W5_of_ne m ρ c main_arg6 (by decide)).trans (W4_arg6 m ρ c)
theorem W5_arg7 : W5 m ρ c (Proc.devRef .tc main_arg7) = x7 m c :=
  (W5_of_ne m ρ c main_arg7 (by decide)).trans (W4_arg7 m ρ c)

end Cert.Bridge

end
-- ==== Proof.Region3.lean ====
/-
  The combine step launched as pallas_call 3: over twenty row tiles of 5000 rows, the aggregated messages plus the
  self-loop term plus the bias row (one [1, 64] block, resident, broadcast over the tile's rows), then the maximum with
  zero. The operations are elementwise, so the output array after the call is the same expression of the whole arrays:
  entry (r, c) is max ((P(r, c) + Q(r, c)) + b(0, c), 0). Stated for ANY contents of the buffers at the call's entry.
-/
import proofs.«161740_j15522011808326_1_alg».proof.Proof.Gen.KernelIdeal.Frame
import Idealize.ShloMosaic.Lib.Pipeline.Value
import Idealize.ShloMosaic.Lib.ValueIdx
import proofs.«161740_j15522011808326_1_alg».proof.Proof.LibMatProd
import proofs.«161740_j15522011808326_1_alg».proof.Proof.LibRowBias

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What a tile stores, at (r, c) of the tile: max ((p(r, c) + q(r, c)) + b(0, c), 0). -/
theorem pay_apply (x0 x1 : FVec Ideal S5000x64 .f32) (x2 : FVec Ideal S1x64 .f32) (y : S5000x64.Idx) :
    k3_pay1 (F := Ideal) x0 x1 x2 y = Cert.Spec.addRowMax x0 x1 x2 (Ideal.ofBits .f32 0x00000000#32) y := by
  unfold k3_pay1 Cert.Spec.addRowMax
  simp only [shapeCast_self]
  show max ((x0 y + x1 y) + broadcastTo S5000x64 x2 broadcasts_S1x64_S5000x64 y) (Ideal.ofBits .f32 0x00000000#32) = _
  exact congrArg (fun e => max ((x0 y + x1 y) + e) (Ideal.ofBits .f32 0x00000000#32))
    (Cert.RowBias.bcastRow_apply x2 broadcasts_S1x64_S5000x64 y)

/-- The printed index maps, decided over the twenty tiles: the two summands' windows move with the output's, the bias
    row's stays. -/
theorem idx_facts : ∀ t : Fin cfg3.N, win3_0.index t (0 : Fin 2) = win3_3.index t (0 : Fin 2)
    ∧ win3_0.index t (1 : Fin 2) = win3_3.index t (1 : Fin 2)
    ∧ win3_1.index t (0 : Fin 2) = win3_3.index t (0 : Fin 2)
    ∧ win3_1.index t (1 : Fin 2) = win3_3.index t (1 : Fin 2)
    ∧ win3_2.index t (0 : Fin 2) = 0
    ∧ win3_2.index t (1 : Fin 2) = 0
    ∧ win3_3.index t (1 : Fin 2) = 0
    ∧ win3_3.index t (0 : Fin 2) = t.val :=
  (by decide +kernel : ∀ t : Fin grid3.N, _)

/-- WHAT TILE `t` WRITES BACK is block `t` of the whole-array expression of the arrays as the call finds them. -/
theorem flushed_eq (c : Dev nD) (t : Fin cfg3.N) :
    (dat3 V c).flushed 3 t
      = ((cfg3.win 3).blk t).view.read (Elt Ideal)
          (Cert.Spec.addRowMax (M := 100000) (N := 64) (V c main_v59) (V c main_v63) (V c main_v64) (Ideal.ofBits .f32 0x00000000#32)) := by
  show (cfg3.win 3).cut (grid3.coords t) ((dat3 V c).after 3 t) = _
  rw [after3_3]
  unfold out3_3
  rw [View.canon_unit_zero hz]
  simp only [View.ld_unit_zero (S := S5000x64) hz, View.ld_unit_zero (S := S1x64) hz]
  obtain ⟨e0, e1, e2, e3, e4, e5, e6, e7⟩ := idx_facts t
  funext y
  show k3_pay1 (iblk3 V c 0 t) (iblk3 V c 1 t) (iblk3 V c 2 t) y
    = Cert.Spec.addRowMax (M := 100000) (N := 64) (V c main_v59) (V c main_v63) (V c main_v64) (Ideal.ofBits .f32 0x00000000#32) (((cfg3.win 3).blk t).view.emb y)
  rw [pay_apply]
  unfold Cert.Spec.addRowMax
  have h0 : iblk3 V c 0 t y = V c main_v59 (((cfg3.win 3).blk t).view.emb y) := by
    show V c main_v59 (((cfg3.win 0).blk t).view.emb y) = _
    refine congrArg (V c main_v59) (funext fun a => Fin.ext ?_)
    match a with
    | ⟨0, _⟩ => show win3_0.index t (0 : Fin 2) * 5000 + 1 * (y 0).val = win3_3.index t (0 : Fin 2) * 5000 + 1 * (y 0).val; omega
    | ⟨1, _⟩ => show win3_0.index t (1 : Fin 2) * 64 + 1 * (y 1).val = win3_3.index t (1 : Fin 2) * 64 + 1 * (y 1).val; omega
  have h1 : iblk3 V c 1 t y = V c main_v63 (((cfg3.win 3).blk t).view.emb y) := by
    show V c main_v63 (((cfg3.win 1).blk t).view.emb y) = _
    refine congrArg (V c main_v63) (funext fun a => Fin.ext ?_)
    match a with
    | ⟨0, _⟩ => show win3_1.index t (0 : Fin 2) * 5000 + 1 * (y 0).val = win3_3.index t (0 : Fin 2) * 5000 + 1 * (y 0).val; omega
    | ⟨1, _⟩ => show win3_1.index t (1 : Fin 2) * 64 + 1 * (y 1).val = win3_3.index t (1 : Fin 2) * 64 + 1 * (y 1).val; omega
  have h2 : iblk3 V c 2 t (ix2 (0 : Fin 1) (y 1)) = V c main_v64 (ix2 (0 : Fin 1) ((((cfg3.win 3).blk t).view.emb y) 1)) := by
    show V c main_v64 (((cfg3.win 2).blk t).view.emb (ix2 (0 : Fin 1) (y 1))) = _
    refine congrArg (V c main_v64) (funext fun a => Fin.ext ?_)
    match a with
    | ⟨0, _⟩ => show win3_2.index t (0 : Fin 2) * 1 + 1 * 0 = 0; omega
    | ⟨1, _⟩ => show win3_2.index t (1 : Fin 2) * 64 + 1 * (y 1).val = win3_3.index t (1 : Fin 2) * 64 + 1 * (y 1).val; omega
  rw [h0, h1, h2]

/-- An index of the array is in tile `t`'s block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v65).slice (win3_3.rect t)).set ↔ _
  rw [View.set_slice_whole, Rect.mem_set_unit]
  exact Iff.rfl

/-- Every row lies in the tile numbered by its quotient by 5000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0, e1, e2, e3, e4, e5, e6, e7⟩ := idx_facts t
  have e7' : win3_3.index t (0 : Fin 2) = (i 0).val / 5000 := e7
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- THE ARRAY after the call: the elementwise expression of the three arrays as the call found them. -/
theorem final (c : Dev nD) :
    (dat3 V c).arrAt 3 cfg3.N
      = Cert.Spec.addRowMax (M := 100000) (N := 64) (V c main_v59) (V c main_v63) (V c main_v64) (Ideal.ofBits .f32 0x00000000#32) :=
  (dat3 V c).arrAt_eq_of_cover 3 _ (fun t _ => flushed_eq V c t) cover

end Cert.KernelIdeal.Region3

end
-- ==== Proof.Chain4.lean ====
/-
  The second graph convolution of the kernel program, read against the reference's stages. After the second projection
  the host gathers, weights, scatter-adds and forms the self-loop term exactly as in the first layer, from the same
  degree-derived values (the reference computes them a second time, from the same edge list, by the same operations);
  the fourth pallas_call adds the two terms and the second bias row and takes the maximum with zero: the reference's
  second rectified stage.
-/
import proofs.«161740_j15522011808326_1_alg».proof.Proof.Gen.KernelIdeal.Frame
import proofs.«161740_j15522011808326_1_alg».proof.Proof.Gen.ReferenceIdeal.Read
import proofs.«161740_j15522011808326_1_alg».proof.Proof.Chain1
import proofs.«161740_j15522011808326_1_alg».proof.Proof.Chain2
import proofs.«161740_j15522011808326_1_alg».proof.Proof.Chain3
import proofs.«161740_j15522011808326_1_alg».proof.Proof.Region3
import proofs.«161740_j15522011808326_1_alg».proof.Proof.LibMatProd
import proofs.«161740_j15522011808326_1_alg».proof.Proof.LibRowBias

set_option maxRecDepth 16384

noncomputable section

namespace Cert.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## After the third host stretch -/

/-- The aggregated messages of the second layer. -/
theorem W6_v59 : W6 m ρ c (Proc.devRef .tc main_v59)
    = Cert.ReferenceIdeal.Read.val_main_v84 (F := Ideal) (x0 m c) (x1 m c) (x2 m c) (x3 m c) (x4 m c) := by
  show StableHlo.after hostOps3 (W5 m ρ c) (Proc.devRef .tc main_v59) = _
  after_results_simp
  rw [W5_v46, W5_v1, W5_v3, W5_v25]
  rfl
/-- The self-loop term of the second layer. -/
theorem W6_v63 : W6 m ρ c (Proc.devRef .tc main_v63)
    = Cert.ReferenceIdeal.Read.val_main_v88 (F := Ideal) (x0 m c) (x1 m c) (x2 m c) (x3 m c) (x4 m c) := by
  show StableHlo.after hostOps3 (W5 m ρ c) (Proc.devRef .tc main_v63) = _
  after_results_simp
  rw [W5_v46, W5_v10]
  rfl
/-- The second bias as one row. -/
theorem W6_v64 : W6 m ρ c (Proc.devRef .tc main_v64) = shapeCast S1x64 (x5 m c) shapeCasts_S64_S1x64 := by
  show StableHlo.after hostOps3 (W5 m ρ c) (Proc.devRef .tc main_v64) = _
  after_results_simp
  rw [W5_arg5]
  rfl

theorem W6_arg6 : W6 m ρ c (Proc.devRef .tc main_arg6) = x6 m c := by
  show StableHlo.after hostOps3 (W5 m ρ c) (Proc.devRef .tc main_arg6) = _
  after_results_simp
  exact W5_arg6 m ρ c
theorem W6_arg7 : W6 m ρ c (Proc.devRef .tc main_arg7) = x7 m c := by
  show StableHlo.after hostOps3 (W5 m ρ c) (Proc.devRef .tc main_arg7) = _
  after_results_simp
  exact W5_arg7 m ρ c

/-! ## After the fourth pallas_call: the second layer's output -/

/-- The second layer's output: the reference's second rectified stage. -/
theorem W7_v65 : W7 m ρ c (Proc.devRef .tc main_v65)
    = Cert.ReferenceIdeal.Read.val_main_v93 (F := Ideal) (x0 m c) (x1 m c) (x2 m c) (x3 m c) (x4 m c) (x5 m c) := by
  refine (W7_arr m ρ c 3).trans ?_
  rw [Cert.KernelIdeal.Region3.final (V6 m ρ) c]
  rw [show V6 m ρ c main_v59 = _ from W6_v59 m ρ c, show V6 m ρ c main_v63 = _ from W6_v63 m ρ c,
    show V6 m ρ c main_v64 = _ from W6_v64 m ρ c]
  exact combine64 _ _ _

theorem W7_arg6 : W7 m ρ c (Proc.devRef .tc main_arg6) = x6 m c :=
  (W7_of_ne m ρ c main_arg6 (by decide)).trans (W6_arg6 m ρ c)
theorem W7_arg7 : W7 m ρ c (Proc.devRef .tc main_arg7) = x7 m c :=
  (W7_of_ne m ρ c main_arg7 (by decide)).trans (W6_arg7 m ρ c)

end Cert.Bridge

end
-- ==== Proof.Region4.lean ====
/-
  The final linear layer launched as pallas_call 4: an [100000, 64] array times a [64, 32] weight plus a bias row, twenty
  row tiles of 5000 rows, weight and bias row resident. Each tile stores the matmul of its rows (narrowed to bf16, exact
  at the ideal reading) by the whole weight, into a zero accumulator, plus the bias row broadcast over the tile's rows;
  so the output array after the call is the whole product plus the row: entry (r, c) is (∑ k, A(r, k) · W(k, c)) + b(0, c).
  Stated for ANY contents of the buffers at the call's entry.
-/
import proofs.«161740_j15522011808326_1_alg».proof.Proof.Gen.KernelIdeal.Frame
import Idealize.ShloMosaic.Lib.Pipeline.Value
import Idealize.ShloMosaic.Lib.ValueIdx
import proofs.«161740_j15522011808326_1_alg».proof.Proof.LibMatProd
import proofs.«161740_j15522011808326_1_alg».proof.Proof.LibRowBias

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The tile's matmul, element by element -/

theorem tile_l0 (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem tile_l1 (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
theorem tile_r0 (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem tile_r1 (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- What a tile stores, at (r, c) of the tile: the sum over k of its rows' block at (r, k) times the weight at (k, c), plus
    the bias row at c. -/
theorem pay_apply (x0 : FVec Ideal S5000x64 .f32) (x1 : FVec Ideal S64x32 .f32) (x2 : FVec Ideal S1x32 .f32) (y : S5000x32.Idx) :
    k4_pay1 (F := Ideal) x0 x1 x2 y = Cert.Spec.addRow (Cert.Spec.rowsByCols x0 x1) x2 y := by
  unfold k4_pay1 Cert.Spec.addRow
  simp only [shapeCast_self]
  show matmul (F := Ideal) dot_S5000x64_S64x32_S5000x32_1_0_0_1_n_n none (truncf .bf16 x0 bitsLt_bf16_f32) (truncf .bf16 x1 bitsLt_bf16_f32)
      (constant S5000x32 .f32 0x00000000#32) y + broadcastTo S5000x32 x2 broadcasts_S1x32_S5000x32 y = _
  exact congrArg₂ (· + ·)
    (Cert.MatProd.tileDot_apply dot_S5000x64_S64x32_S5000x32_1_0_0_1_n_n rfl rfl tile_l0 tile_l1 tile_r0 tile_r1 x0 x1 _ y)
    (Cert.RowBias.bcastRow_apply x2 broadcasts_S1x32_S5000x32 y)

/-! ## From tiles to the array -/

/-- The printed index maps, decided over the twenty tiles: the rows' window moves with the output's, the weight's and the
    bias row's stay. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) = t.val :=
  (by decide +kernel : ∀ t : Fin grid4.N, _)

/-- WHAT TILE `t` WRITES BACK is block `t` of the whole product plus the row, of the arrays as the call finds them. -/
theorem flushed_eq (c : Dev nD) (t : Fin cfg4.N) :
    (dat4 V c).flushed 3 t
      = ((cfg4.win 3).blk t).view.read (Elt Ideal)
          (Cert.Spec.addRow (Cert.Spec.rowsByCols (M := 100000) (K := 64) (N := 32) (V c main_v65) (V c main_arg6)) (V c main_v66)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x32) hz, View.ld_unit_zero (S := S1x32) hz]
  obtain ⟨e0, e1, e2, e3, e4, e5, e6, e7⟩ := idx_facts t
  funext y
  show k4_pay1 (iblk4 V c 0 t) (iblk4 V c 1 t) (iblk4 V c 2 t) y
    = Cert.Spec.addRow (Cert.Spec.rowsByCols (M := 100000) (K := 64) (N := 32) (V c main_v65) (V c main_arg6)) (V c main_v66) (((cfg4.win 3).blk t).view.emb y)
  rw [pay_apply]
  unfold Cert.Spec.addRow Cert.Spec.rowsByCols
  have h2 : iblk4 V c 2 t (ix2 (0 : Fin 1) (y 1)) = V c main_v66 (ix2 (0 : Fin 1) ((((cfg4.win 3).blk t).view.emb y) 1)) := by
    show V c main_v66 (((cfg4.win 2).blk t).view.emb (ix2 (0 : Fin 1) (y 1))) = _
    refine congrArg (V c main_v66) (funext fun a => Fin.ext ?_)
    match a with
    | ⟨0, _⟩ => show win4_2.index t (0 : Fin 2) * 1 + 1 * 0 = 0; omega
    | ⟨1, _⟩ => show win4_2.index t (1 : Fin 2) * 32 + 1 * (y 1).val = win4_3.index t (1 : Fin 2) * 32 + 1 * (y 1).val; omega
  rw [h2]
  refine congrArg (· + _) (Finset.sum_congr rfl fun k _ => ?_)
  have hA : iblk4 V c 0 t (ix2 (y 0) k) = V c main_v65 (ix2 ((((cfg4.win 3).blk t).view.emb y) 0) k) := by
    show V c main_v65 (((cfg4.win 0).blk t).view.emb (ix2 (y 0) k)) = _
    refine congrArg (V c main_v65) (funext fun a => Fin.ext ?_)
    match a with
    | ⟨0, _⟩ => show win4_0.index t (0 : Fin 2) * 5000 + 1 * (y 0).val = win4_3.index t (0 : Fin 2) * 5000 + 1 * (y 0).val; omega
    | ⟨1, _⟩ => show win4_0.index t (1 : Fin 2) * 64 + 1 * k.val = k.val; omega
  have hB : iblk4 V c 1 t (ix2 k (y 1)) = V c main_arg6 (ix2 k ((((cfg4.win 3).blk t).view.emb y) 1)) := by
    show V c main_arg6 (((cfg4.win 1).blk t).view.emb (ix2 k (y 1))) = _
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 32 + 1 * (y 1).val = win4_3.index t (1 : Fin 2) * 32 + 1 * (y 1).val; omega
  rw [hA, hB]

/-- An index of the array is in tile `t`'s block iff each coordinate is in the block's range on its axis. -/
theorem mem_blk (t : Fin cfg4.N) (i : S100000x32.Idx) :
    i ∈ ((cfg4.win 3).blk t).view.set ↔ ∀ a : Fin 2, win4_3.index t a * S5000x32.size a ≤ (i a).val ∧ (i a).val < win4_3.index t a * S5000x32.size a + S5000x32.size a := by
  show i ∈ ((View.whole main_v67).slice (win4_3.rect t)).set ↔ _
  rw [View.set_slice_whole, Rect.mem_set_unit]
  exact Iff.rfl

/-- Every row lies in the tile numbered by its quotient by 5000. -/
theorem cover (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 20 := N_4
  let t : Fin cfg4.N := ⟨(i 0).val / 5000, by rw [hN]; omega⟩
  obtain ⟨e0, e1, e2, e3, e4, e5, e6, e7⟩ := idx_facts t
  have e7' : win4_3.index t (0 : Fin 2) = (i 0).val / 5000 := e7
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 32 ≤ (i 1).val ∧ (i 1).val < win4_3.index t (1 : Fin 2) * 32 + 32; omega

/-- THE ARRAY after the call: the whole product plus the bias row, of the arrays as the call found them. -/
theorem final (c : Dev nD) :
    (dat4 V c).arrAt 3 cfg4.N
      = Cert.Spec.addRow (Cert.Spec.rowsByCols (M := 100000) (K := 64) (N := 32) (V c main_v65) (V c main_arg6)) (V c main_v66) :=
  (dat4 V c).arrAt_eq_of_cover 3 _ (fun t _ => flushed_eq V c t) cover

end Cert.KernelIdeal.Region4

end
-- ==== Proof.Chain5.lean ====
/-
  The final linear layer of the kernel program, read against the reference's last stages: the fifth pallas_call leaves
  relu(layer 2) · Wf plus the bias row, which at the exact reading is the reference's last dot_general plus its twice
  broadcast bias vector, entry by entry. With it the kernel program's result buffer holds the reference's result stage
  of the launch arguments.
-/
import proofs.«161740_j15522011808326_1_alg».proof.Proof.Gen.KernelIdeal.Frame
import proofs.«161740_j15522011808326_1_alg».proof.Proof.Gen.ReferenceIdeal.Read
import proofs.«161740_j15522011808326_1_alg».proof.Proof.Chain1
import proofs.«161740_j15522011808326_1_alg».proof.Proof.Chain4
import proofs.«161740_j15522011808326_1_alg».proof.Proof.Region4
import proofs.«161740_j15522011808326_1_alg».proof.Proof.LibMatProd
import proofs.«161740_j15522011808326_1_alg».proof.Proof.LibRowBias

set_option maxRecDepth 16384

noncomputable section

namespace Cert.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## After the last host stretch -/

theorem W8_v65 : W8 m ρ c (Proc.devRef .tc main_v65)
    = Cert.ReferenceIdeal.Read.val_main_v93 (F := Ideal) (x0 m c) (x1 m c) (x2 m c) (x3 m c) (x4 m c) (x5 m c) := by
  show StableHlo.after hostOps4 (W7 m ρ c) (Proc.devRef .tc main_v65) = _
  after_results_simp
  exact W7_v65 m ρ c
theorem W8_arg6 : W8 m ρ c (Proc.devRef .tc main_arg6) = x6 m c := by
  show StableHlo.after hostOps4 (W7 m ρ c) (Proc.devRef .tc main_arg6) = _
  after_results_simp
  exact W7_arg6 m ρ c
/-- The last bias as one row. -/
theorem W8_v66 : W8 m ρ c (Proc.devRef .tc main_v66) = shapeCast S1x32 (x7 m c) shapeCasts_S32_S1x32 := by
  show StableHlo.after hostOps4 (W7 m ρ c) (Proc.devRef .tc main_v66) = _
  after_results_simp
  rw [W7_arg7]
  rfl

/-! ## The result -/

/-- The reference's [100000, 64] × [64, 32] dot_general is the plain sum over the shared axis. -/
theorem refDot32 (A : FVec Ideal Cert.ReferenceIdeal.S100000x64 .f32) (B : FVec Ideal Cert.ReferenceIdeal.S64x32 .f32)
    (j : Cert.ReferenceIdeal.S100000x32.Idx) :
    Host.dotGeneral (F := Ideal) Cert.ReferenceIdeal.dot_S100000x64_S64x32_S100000x32_1_0_0_1_n_n none A B j
      = Cert.Spec.rowsByCols A B j :=
  Cert.MatProd.hostDot_apply Cert.ReferenceIdeal.dot_S100000x64_S64x32_S100000x32_1_0_0_1_n_n rfl rfl
    Cert.ReferenceIdeal.Read.lhs_main_v94_0 Cert.ReferenceIdeal.Read.lhs_main_v94_1 Cert.ReferenceIdeal.Read.rhs_main_v94_0 Cert.ReferenceIdeal.Read.rhs_main_v94_1 A B j

/-- The last bias row's entry in the two programs' spellings. -/
theorem biasRow32 (b : FVec Ideal Cert.ReferenceIdeal.S32 .f32) (i : Cert.ReferenceIdeal.S100000x32.Idx) :
    shapeCast S1x32 b shapeCasts_S32_S1x32 (ix2 (0 : Fin 1) (i 1)) = Cert.ReferenceIdeal.Read.val_main_v96 (F := Ideal) b i := by
  rw [Cert.ReferenceIdeal.Read.val_main_v96_apply, Cert.ReferenceIdeal.Read.val_main_v95_apply]
  refine (Cert.RowBias.rowOf_apply b shapeCasts_S32_S1x32 (i 1)).trans (congrArg b (funext fun a => Fin.ext ?_))
  match a with
  | ⟨0, _⟩ => rfl

/-- Product plus bias row: the kernel's entry-by-entry expression is the reference's, for any operands. -/
theorem linear32 (A : FVec Ideal Cert.ReferenceIdeal.S100000x64 .f32) (B : FVec Ideal Cert.ReferenceIdeal.S64x32 .f32)
    (b : FVec Ideal Cert.ReferenceIdeal.S32 .f32) :
    Cert.Spec.addRow (Cert.Spec.rowsByCols (M := 100000) (K := 64) (N := 32) A B) (shapeCast S1x32 b shapeCasts_S32_S1x32)
      = addf (Host.dotGeneral (F := Ideal) Cert.ReferenceIdeal.dot_S100000x64_S64x32_S100000x32_1_0_0_1_n_n none A B)
          (Cert.ReferenceIdeal.Read.val_main_v96 (F := Ideal) b) :=
  funext fun i => by
    unfold Cert.Spec.addRow
    rw [biasRow32 b i]
    show _ = Host.dotGeneral (F := Ideal) Cert.ReferenceIdeal.dot_S100000x64_S64x32_S100000x32_1_0_0_1_n_n none A B i
      + Cert.ReferenceIdeal.Read.val_main_v96 (F := Ideal) b i
    rw [refDot32]

/-- THE KERNEL PROGRAM'S RESULT is the reference's result stage of the launch arguments. -/
theorem W9_v67 : W9 m ρ c (Proc.devRef .tc main_v67)
    = Cert.ReferenceIdeal.Read.val_main_v97 (F := Ideal) (x0 m c) (x1 m c) (x2 m c) (x3 m c) (x4 m c) (x5 m c) (x6 m c) (x7 m c) := by
  refine (W9_arr m ρ c 3).trans ?_
  rw [Cert.KernelIdeal.Region4.final (V8 m ρ) c]
  rw [show V8 m ρ c main_v65 = _ from W8_v65 m ρ c, show V8 m ρ c main_arg6 = _ from W8_arg6 m ρ c,
    show V8 m ρ c main_v66 = _ from W8_v66 m ρ c]
  exact linear32 _ _ _

end Cert.Bridge

end
-- ==== Proof.lean ====
/-
  The kernel program — a two-layer graph convolution with a final linear layer, its three dense projections and its two
  "sum, bias, rectify" steps run as five pallas_calls over twenty row tiles, the gathers and scatter-adds along the
  edges left to the host — against the plain jnp reference, at the exact (extended-real) reading.

  Both programs apply the SAME host operations to the edge list (source and destination indices, in-degree plus one, its
  inverse square root, the edge weights) and to each layer's projected features (row gather, weighting, scatter-add,
  self-loop term); these are never opened: equal operands give equal results. What differs is only where the dense work
  is done, and each pallas_call leaves exactly what the reference's corresponding operations compute:
    · a tile's bf16 matmul into a zero accumulator is, exactly, the sum over the shared axis, so the tiles together
      hold the reference's dot_general (narrowing a float's format changes nothing at the exact reading);
    · the elementwise (aggregated + self-loop) + bias row, then max with 0, is the reference's two additions and relu,
      the bias row being the bias vector in either spelling (a reshape to [1, n] here, two broadcasts there);
    · the last call's product plus bias row is the reference's last dot_general plus its broadcast bias.
  No algebraic law beyond reading both sides entry by entry is needed, so the finiteness precondition is never used.
  The idealization rewrote no operation, so `preserves` is trivial; the three frames are the generated ones (the
  reference's is its generated run with the result dropped).
-/
import proofs.«161740_j15522011808326_1_alg».proof.Defs
import proofs.«161740_j15522011808326_1_alg».proof.Proof.Gen.Kernel
import proofs.«161740_j15522011808326_1_alg».proof.Proof.Gen.Kernel.Frame
import proofs.«161740_j15522011808326_1_alg».proof.Proof.Gen.KernelIdeal
import proofs.«161740_j15522011808326_1_alg».proof.Proof.Gen.KernelIdeal.Frame
import proofs.«161740_j15522011808326_1_alg».proof.Proof.Gen.ReferenceIdeal
import proofs.«161740_j15522011808326_1_alg».proof.Proof.Gen.ReferenceIdeal.Run
import proofs.«161740_j15522011808326_1_alg».proof.Proof.Gen.ReferenceIdeal.Read
import proofs.«161740_j15522011808326_1_alg».proof.Proof.Gen.Pre_finite_inputs
import proofs.«161740_j15522011808326_1_alg».proof.Proof.FrameResult
import proofs.«161740_j15522011808326_1_alg».proof.Proof.Chain5
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories agreeing on the arguments, end with the reference's result stage of those
    arguments in their result buffers: the kernel program by the chain of its five calls read against the reference's
    stages, the reference by its generated run. -/
theorem algebraic : Cert.algebraic_KernelIdeal_ReferenceIdeal := by
  intro m ρ m' ρ' _ hagree
  refine ⟨fun c => Cert.ReferenceIdeal.Read.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.Bridge.W9_v67 m ρ c), (h c).2⟩)
      (Cert.KernelIdeal.GenP.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
